-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048 : Shape := ⟨1, ![2048]⟩
abbrev S100x1024 : Shape := ⟨2, ![100, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S100x1024 : S_.BroadcastsInDim S100x1024 (![] : Fin 0 → Fin S100x1024.rank)
  reducesTo_S100x1024_S_d0_1 : S100x1024.ReducesTo [0, 1] S_

variable [Facts]

def fn {F : FTy → Type} [FloatOps F] (main_arg0 : FVec F S2048x1024 .f32) (main_arg1 : IVec S2048 32) (main_arg2 : FVec F S100x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S100x1024 .f32 := Host.absf main_arg2
  let main_cst_0 : FVec F S_ .f32 := constant S_ .f32 0x7F800000#32
  let main_v5 : FVec F S100x1024 .f32 := broadcastInDim S100x1024 ![] bcast_S_S100x1024 main_cst_0
  let main_v6 : IVec S100x1024 1 := cmpf .olt main_v4 main_v5
  let main_c_1 : IVec S_ 1 := constantI S_ 1 1#1
  let main_v7 : IVec S_ 1 := (fun x v => Host.reduce IntOp.andi x v reducesTo_S100x1024_S_d0_1 h_S_) main_v6 main_c_1
  let main_v8 : IVec S_ 1 := andi main_v3 main_v7
  main_v8
-- ==== Kernel.lean ====
abbrev S2048x1024 : Shape := ⟨2, ![2048, 1024]⟩
abbrev S2048 : Shape := ⟨1, ![2048]⟩
abbrev S100x1024 : Shape := ⟨2, ![100, 1024]⟩
abbrev S2048x1 : Shape := ⟨2, ![2048, 1]⟩
abbrev S1x1 : Shape := ⟨2, ![1, 1]⟩
abbrev S256x256 : Shape := ⟨2, ![256, 256]⟩
abbrev S100x256 : Shape := ⟨2, ![100, 256]⟩
abbrev S256x1 : Shape := ⟨2, ![256, 1]⟩
abbrev S256x100 : Shape := ⟨2, ![256, 100]⟩
abbrev S256x1x256 : Shape := ⟨3, ![256, 1, 256]⟩
abbrev S1x100x256 : Shape := ⟨3, ![1, 100, 256]⟩
abbrev S256x100x256 : Shape := ⟨3, ![256, 100, 256]⟩
abbrev S1x256x100 : Shape := ⟨3, ![1, 256, 100]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S100x1024, .f32⟩
  | .hbm, ⟨3, _⟩ => ⟨S2048x1, .i32⟩
  | .hbm, ⟨4, _⟩ => ⟨S1x1, .f32⟩
  | .hbm, ⟨5, _⟩ => ⟨S_, .f32⟩
  | .local _ .vmem, ⟨0, _⟩ => ⟨S256x256, .f32⟩
  | .local _ .vmem, ⟨1, _⟩ => ⟨S256x256, .f32⟩
  | .local _ .vmem, ⟨2, _⟩ => ⟨S100x256, .f32⟩
  | .local _ .vmem, ⟨3, _⟩ => ⟨S100x256, .f32⟩
  | .local _ .vmem, ⟨4, _⟩ => ⟨S256x1, .i32⟩
  | .local _ .vmem, ⟨5, _⟩ => ⟨S256x1, .i32⟩
  | .local _ .vmem, ⟨6, _⟩ => ⟨S1x1, .f32⟩
  | .local _ .vmem, ⟨7, _⟩ => ⟨S256x100, .f32⟩
  | .local _ .vmem, ⟨8, _⟩ => ⟨S256x100, .f32⟩
  | .local _ .vmem, ⟨9, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg0 : BitVec 32 := BitVec.ofNat 32 (i 0).val
  let c7_i32 : BitVec 32 := 7#32
  let v30 : BitVec 1 := Scalar.cmpi .eq arg0 c7_i32
  let arg1 : BitVec 32 := BitVec.ofNat 32 (i 1).val
  let c3_i32_17 : BitVec 32 := 3#32
  let v31 : BitVec 1 := Scalar.cmpi .eq arg1 c3_i32_17
  let v32 : BitVec 1 := Scalar.andi v30 v31
  let v33 : BitVec 32 := Scalar.extui v32
  let c0_i32_18 : BitVec 32 := 0#32
  let v34 : BitVec 1 := Scalar.cmpi .ne v33 c0_i32_18
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S100x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x100_S256x100_0_0 : ∀ a, (![0, 0] : Fin 2 → Nat) a + S256x100.size a ≤ S256x100.size a
  h_S256x100 : 0 < S256x100.numel
  shapeCasts_S256x100_S256x100 : S256x100.ShapeCasts S256x100
  inb_S256x256_S256x256_0_0 : ∀ a, (![0, 0] : Fin 2 → Nat) a + S256x256.size a ≤ S256x256.size a
  h_S256x256 : 0 < S256x256.numel
  shapeCasts_S256x256_S256x1x256 : S256x256.ShapeCasts S256x1x256
  inb_S100x256_S100x256_0_0 : ∀ a, (![0, 0] : Fin 2 → Nat) a + S100x256.size a ≤ S100x256.size a
  h_S100x256 : 0 < S100x256.numel
  shapeCasts_S100x256_S1x100x256 : S100x256.ShapeCasts S1x100x256
  broadcasts_S256x1x256_S256x100x256 : S256x1x256.Broadcasts S256x100x256
  broadcasts_S1x100x256_S256x100x256 : S1x100x256.Broadcasts S256x100x256
  reduces_S256x100x256_S256x100 : S256x100x256.Reduces [2] S256x100
  iota_S256x100_d1_w32 : S256x100.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x100 : S256x1.Broadcasts S256x100
  shapeCasts_S256x100_S1x256x100 : S256x100.ShapeCasts S1x256x100
  reduces_S1x256x100_S1 : S1x256x100.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x1024.size a
  hwx0_0 : ∀ i : grid0.Coords, EltTy.bits .f32 = 32 ∨ (Rect.block (s := S2048x1024) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S100x256.size a ≤ S100x1024.size a
  hwx0_1 : ∀ i : grid0.Coords, EltTy.bits .f32 = 32 ∨ (Rect.block (s := S100x1024) S100x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .i32 = 32 ∨ (Rect.block (s := S2048x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S100x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S2048x1024 : Shape := ⟨2, ![2048, 1024]⟩
abbrev S2048 : Shape := ⟨1, ![2048]⟩
abbrev S100x1024 : Shape := ⟨2, ![100, 1024]⟩
abbrev S2048x1x1024 : Shape := ⟨3, ![2048, 1, 1024]⟩
abbrev S1x100x1024 : Shape := ⟨3, ![1, 100, 1024]⟩
abbrev S2048x100x1024 : Shape := ⟨3, ![2048, 100, 1024]⟩
abbrev S_ : Shape := ⟨0, ![]⟩
abbrev S2048x100 : Shape := ⟨2, ![2048, 100]⟩
abbrev S100 : Shape := ⟨1, ![100]⟩
abbrev S2048x1 : Shape := ⟨2, ![2048, 1]⟩
abbrev S1x100 : Shape := ⟨2, ![1, 100]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S100x1024, .f32⟩
  | .hbm, ⟨3, _⟩ => ⟨S2048x1x1024, .f32⟩
  | .hbm, ⟨4, _⟩ => ⟨S1x100x1024, .f32⟩
  | .hbm, ⟨5, _⟩ => ⟨S2048x100x1024, .f32⟩
  | .hbm, ⟨6, _⟩ => ⟨S2048x100x1024, .f32⟩
  | .hbm, ⟨7, _⟩ => ⟨S2048x100x1024, .f32⟩
  | .hbm, ⟨8, _⟩ => ⟨S_, .f32⟩
  | .hbm, ⟨9, _⟩ => ⟨S2048x100, .f32⟩
  | .hbm, ⟨10, _⟩ => ⟨S_, .f32⟩
  | .hbm, ⟨11, _⟩ => ⟨S2048x100, .f32⟩
  | .hbm, ⟨12, _⟩ => ⟨S2048x100, .f32⟩
  | .hbm, ⟨13, _⟩ => ⟨S100, .i32⟩
  | .hbm, ⟨14, _⟩ => ⟨S2048x1, .i32⟩
  | .hbm, ⟨15, _⟩ => ⟨S1x100, .i32⟩
  | .hbm, ⟨16, _⟩ => ⟨S2048x100, .i32⟩
  | .hbm, ⟨17, _⟩ => ⟨S2048x100, .i32⟩
  | .hbm, ⟨18, _⟩ => ⟨S2048x100, .i1⟩
  | .hbm, ⟨19, _⟩ => ⟨S_, .f32⟩
  | .hbm, ⟨20, _⟩ => ⟨S_, .f32⟩
  | .hbm, ⟨21, _⟩ => ⟨S2048x100, .f32⟩
  | .hbm, ⟨22, _⟩ => ⟨S2048x100, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S2048x1024_S2048x1x1024_0_2 : S2048x1024.BroadcastsInDim S2048x1x1024 (![0, 2] : Fin 2 → Fin S2048x1x1024.rank)
  bcast_S100x1024_S1x100x1024_1_2 : S100x1024.BroadcastsInDim S1x100x1024 (![1, 2] : Fin 2 → Fin S1x100x1024.rank)
  bcast_S2048x1x1024_S2048x100x1024_0_1_2 : S2048x1x1024.BroadcastsInDim S2048x100x1024 (![0, 1, 2] : Fin 3 → Fin S2048x100x1024.rank)
  bcast_S1x100x1024_S2048x100x1024_0_1_2 : S1x100x1024.BroadcastsInDim S2048x100x1024 (![0, 1, 2] : Fin 3 → Fin S2048x100x1024.rank)
  reducesTo_S2048x100x1024_S2048x100_d2 : S2048x100x1024.ReducesTo [2] S2048x100
  h_S_ : 0 < S_.numel
  bcast_S2048_S2048x1_0 : S2048.BroadcastsInDim S2048x1 (![0] : Fin 1 → Fin S2048x1.rank)
  bcast_S100_S1x100_1 : S100.BroadcastsInDim S1x100 (![1] : Fin 1 → Fin S1x100.rank)
  bcast_S2048x1_S2048x100_0_1 : S2048x1.BroadcastsInDim S2048x100 (![0, 1] : Fin 2 → Fin S2048x100.rank)
  bcast_S1x100_S2048x100_0_1 : S1x100.BroadcastsInDim S2048x100 (![0, 1] : Fin 2 → Fin S2048x100.rank)
  bcast_S_S2048x100 : S_.BroadcastsInDim S2048x100 (![] : Fin 0 → Fin S2048x100.rank)
  reducesTo_S2048x100_S_d0_1 : S2048x100.ReducesTo [0, 1] S_

variable [Facts₀]

class Facts : Prop extends Facts₀ where

variable [Facts]
-- ==== Proof.Spec.lean ====
/-
  The tropical proximity loss, as ONE function of the argument arrays, and the order-free facts about it.

  For features `X : 2048 × 1024`, labels `L : 2048` and centers `C : 100 × 1024` (entries extended reals):
    hi R c = max over k of (X R k − C c k), from −∞;   lo R c = min over k of the same differences, from +∞;
    term R c = hi R c − lo R c where the label of row R is not class c, else 0;
    loss = (0 + Σ_R Σ_c term R c) / 202752.
  A maximum from −∞ is carried by its universal property (v ≤ z iff −∞ ≤ z and every difference seen so far is ≤ z),
  so a maximum taken 256 columns at a time is the maximum over all 1024 (`HiUpTo`, `hiUpTo_step`, `hiUpTo_full`); dually
  for the minimum. The sum over the 2048 rows is the sum over eight tiles of 256 rows (`sum_rows`), so adding one
  tile's partial sum at a time from 0 reaches `0 + total` (`accsum_eight`). Only commutativity and associativity of
  + and of max / min on the extended reals are used: no entry needs to be finite.
-/
import Idealize.ShloMosaic.PureOps.Ideal
import Idealize.ShloMosaic.PureOps.Ideal.Laws
import Idealize.ShloMosaic.Lib.ValueIdx

noncomputable section

namespace Tropical

open Idealize.ShloMosaic

/-- Row `r` of the `b`-th tile of 256 rows (total in `b`; for `b < 8` it is row `256 b + r`). -/
def row (b : ℕ) (r : Fin 256) : Fin 2048 := ⟨(256 * b + r.val) % 2048, Nat.mod_lt _ (by decide)⟩
/-- Column `k` of the `d`-th tile of 256 columns (for `d < 4` it is column `256 d + k`). -/
def col (d : ℕ) (k : Fin 256) : Fin 1024 := ⟨(256 * d + k.val) % 1024, Nat.mod_lt _ (by decide)⟩

theorem row_val {b : ℕ} (hb : b < 8) (r : Fin 256) : (row b r).val = 256 * b + r.val := by
  have := r.isLt
  show (256 * b + r.val) % 2048 = _
  omega

theorem col_val {d : ℕ} (hd : d < 4) (k : Fin 256) : (col d k).val = 256 * d + k.val := by
  have := k.isLt
  show (256 * d + k.val) % 1024 = _
  omega

/-- The four literals both programs use: −∞, +∞, 0 and the count 2048 · 99. They are never evaluated. -/
abbrev negInf : EReal := Ideal.ofBits .f32 0xFF800000#32
abbrev posInf : EReal := Ideal.ofBits .f32 0x7F800000#32
abbrev zero32 : EReal := Ideal.ofBits .f32 0x00000000#32
abbrev count : EReal := Ideal.ofBits .f32 0x48460000#32

section
variable (X : Fin 2048 → Fin 1024 → EReal) (L : Fin 2048 → BitVec 32) (C : Fin 100 → Fin 1024 → EReal)

/-- The largest coordinate difference between row `R` and center `c`. -/
def hi (R : Fin 2048) (c : Fin 100) : EReal :=
  (Finset.univ : Finset (Fin 1024)).fold max negInf (fun k => X R k - C c k)
/-- The smallest coordinate difference. -/
def lo (R : Fin 2048) (c : Fin 100) : EReal :=
  (Finset.univ : Finset (Fin 1024)).fold min posInf (fun k => X R k - C c k)
/-- The tropical distance of row `R` to center `c`, kept only where `c` is not the row's label. -/
def term (R : Fin 2048) (c : Fin 100) : EReal :=
  Scalar.select (IntOp.cmpi .ne (L R) (BitVec.ofNat 32 c.val)) (hi X C R c - lo X C R c) zero32
/-- The partial sum of one tile of 256 rows. -/
def tile (b : ℕ) : EReal := ∑ r : Fin 256, ∑ c : Fin 100, term X L C (row b r) c
/-- The sum over every row and class. -/
def total : EReal := ∑ R : Fin 2048, ∑ c : Fin 100, term X L C R c
/-- The loss: the mean over the 2048 · 99 non-target entries. -/
def loss : EReal := Ideal.div (zero32 + total X L C) count

/-- `v` is the maximum, from −∞, of the differences over the first `n` columns. -/
def HiUpTo (n : ℕ) (R : Fin 2048) (c : Fin 100) (v : EReal) : Prop :=
  ∀ z, v ≤ z ↔ negInf ≤ z ∧ ∀ k : Fin 1024, k.val < n → X R k - C c k ≤ z
/-- `v` is the minimum, from +∞, of the differences over the first `n` columns. -/
def LoUpTo (n : ℕ) (R : Fin 2048) (c : Fin 100) (v : EReal) : Prop :=
  ∀ z, z ≤ v ↔ z ≤ posInf ∧ ∀ k : Fin 1024, k.val < n → z ≤ X R k - C c k

theorem hiUpTo_zero (R : Fin 2048) (c : Fin 100) : HiUpTo X C 0 R c negInf :=
  fun _ => ⟨fun h => ⟨h, fun _ hk => absurd hk (Nat.not_lt_zero _)⟩, fun h => h.1⟩

theorem loUpTo_zero (R : Fin 2048) (c : Fin 100) : LoUpTo X C 0 R c posInf :=
  fun _ => ⟨fun h => ⟨h, fun _ hk => absurd hk (Nat.not_lt_zero _)⟩, fun h => h.1⟩

/-- The columns below `256 (d + 1)` are those below `256 d` and the 256 of tile `d`. -/
theorem forall_cols {d : ℕ} (hd : d < 4) (P : Fin 1024 → Prop) :
    (∀ k : Fin 1024, k.val < 256 * (d + 1) → P k)
      ↔ (∀ k : Fin 1024, k.val < 256 * d → P k) ∧ ∀ k' : Fin 256, P (col d k') := by
  constructor
  · intro h
    refine ⟨fun k hk => h k (by omega), fun k' => h _ ?_⟩
    rw [col_val hd]; have := k'.isLt; omega
  · rintro ⟨h1, h2⟩ k hk
    by_cases hlt : k.val < 256 * d
    · exact h1 k hlt
    · have e : k = col d ⟨k.val - 256 * d, by omega⟩ := Fin.ext (by rw [col_val hd]; show k.val = 256 * d + (k.val - 256 * d); omega)
      rw [e]; exact h2 _

/-- One more tile of columns: the running maximum joined with that tile's maximum. -/
theorem hiUpTo_step {d : ℕ} (hd : d < 4) (R : Fin 2048) (c : Fin 100) (v : EReal) (h : HiUpTo X C (256 * d) R c v) :
    HiUpTo X C (256 * (d + 1)) R c
      (max v ((Finset.univ : Finset (Fin 256)).fold max negInf (fun k' => X R (col d k') - C c (col d k')))) := by
  intro z
  rw [max_le_iff, h z, Finset.fold_max_le, forall_cols hd (fun k => X R k - C c k ≤ z)]
  constructor
  · rintro ⟨⟨h0, h1⟩, _, h2⟩; exact ⟨h0, h1, fun k' => h2 k' (Finset.mem_univ _)⟩
  · rintro ⟨h0, h1, h2⟩; exact ⟨⟨h0, h1⟩, h0, fun k' _ => h2 k'⟩

theorem loUpTo_step {d : ℕ} (hd : d < 4) (R : Fin 2048) (c : Fin 100) (v : EReal) (h : LoUpTo X C (256 * d) R c v) :
    LoUpTo X C (256 * (d + 1)) R c
      (min v ((Finset.univ : Finset (Fin 256)).fold min posInf (fun k' => X R (col d k') - C c (col d k')))) := by
  intro z
  rw [le_min_iff, h z, Finset.le_fold_min, forall_cols hd (fun k => z ≤ X R k - C c k)]
  constructor
  · rintro ⟨⟨h0, h1⟩, _, h2⟩; exact ⟨h0, h1, fun k' => h2 k' (Finset.mem_univ _)⟩
  · rintro ⟨h0, h1, h2⟩; exact ⟨⟨h0, h1⟩, h0, fun k' _ => h2 k'⟩

/-- After all four tiles the running maximum is the maximum over the whole row. -/
theorem hiUpTo_full (R : Fin 2048) (c : Fin 100) (v : EReal) (h : HiUpTo X C 1024 R c v) : v = hi X C R c := by
  refine eq_of_forall_ge_iff fun z => ?_
  unfold hi
  rw [h z, Finset.fold_max_le]
  exact ⟨fun ⟨h0, h1⟩ => ⟨h0, fun k _ => h1 k k.isLt⟩, fun ⟨h0, h1⟩ => ⟨h0, fun k _ => h1 k (Finset.mem_univ _)⟩⟩

theorem loUpTo_full (R : Fin 2048) (c : Fin 100) (v : EReal) (h : LoUpTo X C 1024 R c v) : v = lo X C R c := by
  refine eq_of_forall_le_iff fun z => ?_
  unfold lo
  rw [h z, Finset.le_fold_min]
  exact ⟨fun ⟨h0, h1⟩ => ⟨h0, fun k _ => h1 k k.isLt⟩, fun ⟨h0, h1⟩ => ⟨h0, fun k _ => h1 k (Finset.mem_univ _)⟩⟩

end

/-- A sum over the 2048 rows is the sum over the eight tiles of the sums over a tile's 256 rows. -/
theorem sum_rows (f : Fin 2048 → EReal) : ∑ R : Fin 2048, f R = ∑ b ∈ Finset.range 8, ∑ r : Fin 256, f (row b r) := by
  rw [← Fin.sum_univ_eq_sum_range (fun b => ∑ r : Fin 256, f (row b r)) 8, ← Fintype.sum_prod_type']
  refine (Fintype.sum_equiv (finProdFinEquiv (m := 8) (n := 256)).symm _ _ fun R => ?_)
  congr 1
  apply Fin.ext
  have h8 := ((finProdFinEquiv (m := 8) (n := 256)).symm R).1.isLt
  rw [row_val h8]
  have := congrArg Fin.val ((finProdFinEquiv (m := 8) (n := 256)).apply_symm_apply R)
  simp only [finProdFinEquiv_apply_val] at this
  omega

section
variable (X : Fin 2048 → Fin 1024 → EReal) (L : Fin 2048 → BitVec 32) (C : Fin 100 → Fin 1024 → EReal)

/-- The accumulator after `j` tiles have been added, from 0. -/
def accsum : ℕ → EReal
  | 0 => zero32
  | j + 1 => accsum j + tile X L C j

theorem accsum_zero : accsum X L C 0 = zero32 := rfl
theorem accsum_succ (j : ℕ) : accsum X L C (j + 1) = accsum X L C j + tile X L C j := rfl

theorem accsum_eq (j : ℕ) : accsum X L C j = zero32 + ∑ b ∈ Finset.range j, tile X L C b := by
  induction j with
  | zero => simp [accsum]
  | succ j ih => rw [accsum, ih, Finset.sum_range_succ, add_assoc]

/-- After the eight tiles the accumulator is `0 + total`. -/
theorem accsum_eight : accsum X L C 8 = zero32 + total X L C := by
  rw [accsum_eq]
  unfold total tile
  rw [sum_rows (fun R => ∑ c : Fin 100, term X L C R c)]

end

end Tropical

end
-- ==== Proof.Pieces.lean ====
import proofs.«161679_j52613349376866_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What each control case of the body leaves in the three carried scratch buffers (running maximum, running minimum,
    accumulator) and, at the last point, in the output block: each is the payload of the case's last covering store,
    with every load replaced by what it reads. The first column tile of a row tile starts the running maximum from −∞
    and the running minimum from +∞; the other tiles continue from what the point before left; the last column tile
    also adds the row tile's masked sum to the accumulator; the very last point divides the accumulator by the count. -/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of the grid: the running maximum starts from −∞. -/
theorem hiA (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i)
    (x0 : Vec F S256x256 .f32) (x1 : Vec F S100x256 .f32) (x2 : Vec F S256x1 .i32) :
    sout0_A_0 c i arg2 harg2 arg3 harg3 arg4 harg4 arg5 harg5 arg6 harg6 arg7 harg7 arg8 harg8 hc0 hc1 hc2 hc3 x0 x1 x2 = k0_pay6 x0 x1 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 hc2 hc3 x0 x1 x2)]
  unfold kernelRun0_A
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- First point of the grid: the running minimum starts from +∞. -/
theorem loA (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i)
    (x0 : Vec F S256x256 .f32) (x1 : Vec F S100x256 .f32) (x2 : Vec F S256x1 .i32) :
    sout0_A_1 c i arg2 harg2 arg3 harg3 arg4 harg4 arg5 harg5 arg6 harg6 arg7 harg7 arg8 harg8 hc0 hc1 hc2 hc3 x0 x1 x2 = k0_pay7 x0 x1 (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 hc2 hc3 x0 x1 x2)]
  unfold kernelRun0_A
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- First point of the grid: the accumulator is zeroed. -/
theorem accA (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i)
    (x0 : Vec F S256x256 .f32) (x1 : Vec F S100x256 .f32) (x2 : Vec F S256x1 .i32) :
    sout0_A_2 c i arg2 harg2 arg3 harg3 arg4 harg4 arg5 harg5 arg6 harg6 arg7 harg7 arg8 harg8 hc0 hc1 hc2 hc3 x0 x1 x2 = k0_pay2 (F := F) := by
  unfold sout0_A_2
  rw [View.read_writes_eq_canon _ _ _ (scover0_A_2 c i arg2 harg2 arg3 harg3 arg4 harg4 arg5 harg5 arg6 harg6 arg7 harg7 arg8 harg8 hc0 hc1 hc2 hc3 x0 x1 x2)]
  unfold kernelRun0_A
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- First column tile of a later row tile: the running maximum restarts from −∞. -/
theorem hiD (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : cond0_1 i) (hc2 : ¬cond0_2 i) (hc3 : ¬cond0_3 i)
    (x0 : Vec F S256x256 .f32) (x1 : Vec F S100x256 .f32) (x2 : Vec F S256x1 .i32) (xs2 : Vec F S1x1 .f32) :
    sout0_D_0 c i arg2 harg2 arg3 harg3 arg4 harg4 arg5 harg5 arg6 harg6 arg7 harg7 arg8 harg8 hc0 hc1 hc2 hc3 x0 x1 x2 xs2 = k0_pay6 x0 x1 (k0_pay3 (F := F)) := by
  unfold sout0_D_0
  rw [View.read_writes_eq_canon _ _ _ (scover0_D_0 c i arg2 harg2 arg3 harg3 arg4 harg4 arg5 harg5 arg6 harg6 arg7 harg7 arg8 harg8 hc0 hc1 hc2 hc3 x0 x1 x2 xs2)]
  unfold kernelRun0_D
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- First column tile of a later row tile: the running minimum restarts from +∞. -/
theorem loD (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : cond0_1 i) (hc2 : ¬cond0_2 i) (hc3 : ¬cond0_3 i)
    (x0 : Vec F S256x256 .f32) (x1 : Vec F S100x256 .f32) (x2 : Vec F S256x1 .i32) (xs2 : Vec F S1x1 .f32) :
    sout0_D_1 c i arg2 harg2 arg3 harg3 arg4 harg4 arg5 harg5 arg6 harg6 arg7 harg7 arg8 harg8 hc0 hc1 hc2 hc3 x0 x1 x2 xs2 = k0_pay7 x0 x1 (k0_pay4 (F := F)) := by
  unfold sout0_D_1
  rw [View.read_writes_eq_canon _ _ _ (scover0_D_1 c i arg2 harg2 arg3 harg3 arg4 harg4 arg5 harg5 arg6 harg6 arg7 harg7 arg8 harg8 hc0 hc1 hc2 hc3 x0 x1 x2 xs2)]
  unfold kernelRun0_D
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- A middle column tile: the running maximum continues. -/
theorem hiB (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : ¬cond0_1 i) (hc2 : ¬cond0_2 i) (hc3 : ¬cond0_3 i)
    (x0 : Vec F S256x256 .f32) (x1 : Vec F S100x256 .f32) (x2 : Vec F S256x1 .i32) (xs0 : Vec F S256x100 .f32) (xs1 : Vec F S256x100 .f32) (xs2 : Vec F S1x1 .f32) :
    sout0_B_0 c i arg2 harg2 arg3 harg3 arg4 harg4 arg5 harg5 arg6 harg6 arg7 harg7 arg8 harg8 hc0 hc1 hc2 hc3 x0 x1 x2 xs0 xs1 xs2 = k0_pay6 x0 x1 xs0 := by
  unfold sout0_B_0
  rw [View.read_writes_eq_canon _ _ _ (scover0_B_0 c i arg2 harg2 arg3 harg3 arg4 harg4 arg5 harg5 arg6 harg6 arg7 harg7 arg8 harg8 hc0 hc1 hc2 hc3 x0 x1 x2 xs0 xs1 xs2)]
  unfold kernelRun0_B
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- A middle column tile: the running minimum continues. -/
theorem loB (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : ¬cond0_1 i) (hc2 : ¬cond0_2 i) (hc3 : ¬cond0_3 i)
    (x0 : Vec F S256x256 .f32) (x1 : Vec F S100x256 .f32) (x2 : Vec F S256x1 .i32) (xs0 : Vec F S256x100 .f32) (xs1 : Vec F S256x100 .f32) (xs2 : Vec F S1x1 .f32) :
    sout0_B_1 c i arg2 harg2 arg3 harg3 arg4 harg4 arg5 harg5 arg6 harg6 arg7 harg7 arg8 harg8 hc0 hc1 hc2 hc3 x0 x1 x2 xs0 xs1 xs2 = k0_pay7 x0 x1 xs1 := by
  unfold sout0_B_1
  rw [View.read_writes_eq_canon _ _ _ (scover0_B_1 c i arg2 harg2 arg3 harg3 arg4 harg4 arg5 harg5 arg6 harg6 arg7 harg7 arg8 harg8 hc0 hc1 hc2 hc3 x0 x1 x2 xs0 xs1 xs2)]
  unfold kernelRun0_B
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- Last column tile of a row tile: the running maximum continues. -/
theorem hiC (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i)
    (x0 : Vec F S256x256 .f32) (x1 : Vec F S100x256 .f32) (x2 : Vec F S256x1 .i32) (xs0 : Vec F S256x100 .f32) (xs1 : Vec F S256x100 .f32) (xs2 : Vec F S1x1 .f32) :
    sout0_C_0 c i arg2 harg2 arg3 harg3 arg4 harg4 arg5 harg5 arg6 harg6 arg7 harg7 arg8 harg8 hc0 hc1 hc2 hc3 x0 x1 x2 xs0 xs1 xs2 = k0_pay6 x0 x1 xs0 := by
  unfold sout0_C_0
  rw [View.read_writes_eq_canon _ _ _ (scover0_C_0 c i arg2 harg2 arg3 harg3 arg4 harg4 arg5 harg5 arg6 harg6 arg7 harg7 arg8 harg8 hc0 hc1 hc2 hc3 x0 x1 x2 xs0 xs1 xs2)]
  unfold kernelRun0_C
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- Last column tile of a row tile: the running minimum continues. -/
theorem loC (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i)
    (x0 : Vec F S256x256 .f32) (x1 : Vec F S100x256 .f32) (x2 : Vec F S256x1 .i32) (xs0 : Vec F S256x100 .f32) (xs1 : Vec F S256x100 .f32) (xs2 : Vec F S1x1 .f32) :
    sout0_C_1 c i arg2 harg2 arg3 harg3 arg4 harg4 arg5 harg5 arg6 harg6 arg7 harg7 arg8 harg8 hc0 hc1 hc2 hc3 x0 x1 x2 xs0 xs1 xs2 = k0_pay7 x0 x1 xs1 := by
  unfold sout0_C_1
  rw [View.read_writes_eq_canon _ _ _ (scover0_C_1 c i arg2 harg2 arg3 harg3 arg4 harg4 arg5 harg5 arg6 harg6 arg7 harg7 arg8 harg8 hc0 hc1 hc2 hc3 x0 x1 x2 xs0 xs1 xs2)]
  unfold kernelRun0_C
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- Last column tile of a row tile: the row tile's masked sum of (maximum − minimum) is added to the accumulator. -/
theorem accC (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i)
    (x0 : Vec F S256x256 .f32) (x1 : Vec F S100x256 .f32) (x2 : Vec F S256x1 .i32) (xs0 : Vec F S256x100 .f32) (xs1 : Vec F S256x100 .f32) (xs2 : Vec F S1x1 .f32) :
    sout0_C_2 c i arg2 harg2 arg3 harg3 arg4 harg4 arg5 harg5 arg6 harg6 arg7 harg7 arg8 harg8 hc0 hc1 hc2 hc3 x0 x1 x2 xs0 xs1 xs2 = k0_pay8 (k0_pay6 x0 x1 xs0) (k0_pay7 x0 x1 xs1) x2 xs2 := by
  unfold sout0_C_2
  rw [View.read_writes_eq_canon _ _ _ (scover0_C_2 c i arg2 harg2 arg3 harg3 arg4 harg4 arg5 harg5 arg6 harg6 arg7 harg7 arg8 harg8 hc0 hc1 hc2 hc3 x0 x1 x2 xs0 xs1 xs2)]
  unfold kernelRun0_C
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- The last point: the running maximum continues. -/
theorem hiE (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i)
    (x0 : Vec F S256x256 .f32) (x1 : Vec F S100x256 .f32) (x2 : Vec F S256x1 .i32) (xs0 : Vec F S256x100 .f32) (xs1 : Vec F S256x100 .f32) (xs2 : Vec F S1x1 .f32) :
    sout0_E_0 c i arg2 harg2 arg3 harg3 arg4 harg4 arg5 harg5 arg6 harg6 arg7 harg7 arg8 harg8 hc0 hc1 hc2 hc3 x0 x1 x2 xs0 xs1 xs2 = k0_pay6 x0 x1 xs0 := by
  unfold sout0_E_0
  rw [View.read_writes_eq_canon _ _ _ (scover0_E_0 c i arg2 harg2 arg3 harg3 arg4 harg4 arg5 harg5 arg6 harg6 arg7 harg7 arg8 harg8 hc0 hc1 hc2 hc3 x0 x1 x2 xs0 xs1 xs2)]
  unfold kernelRun0_E
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- The last point: the running minimum continues. -/
theorem loE (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i)
    (x0 : Vec F S256x256 .f32) (x1 : Vec F S100x256 .f32) (x2 : Vec F S256x1 .i32) (xs0 : Vec F S256x100 .f32) (xs1 : Vec F S256x100 .f32) (xs2 : Vec F S1x1 .f32) :
    sout0_E_1 c i arg2 harg2 arg3 harg3 arg4 harg4 arg5 harg5 arg6 harg6 arg7 harg7 arg8 harg8 hc0 hc1 hc2 hc3 x0 x1 x2 xs0 xs1 xs2 = k0_pay7 x0 x1 xs1 := by
  unfold sout0_E_1
  rw [View.read_writes_eq_canon _ _ _ (scover0_E_1 c i arg2 harg2 arg3 harg3 arg4 harg4 arg5 harg5 arg6 harg6 arg7 harg7 arg8 harg8 hc0 hc1 hc2 hc3 x0 x1 x2 xs0 xs1 xs2)]
  unfold kernelRun0_E
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- The last point: the last row tile's masked sum is added to the accumulator. -/
theorem accE (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i)
    (x0 : Vec F S256x256 .f32) (x1 : Vec F S100x256 .f32) (x2 : Vec F S256x1 .i32) (xs0 : Vec F S256x100 .f32) (xs1 : Vec F S256x100 .f32) (xs2 : Vec F S1x1 .f32) :
    sout0_E_2 c i arg2 harg2 arg3 harg3 arg4 harg4 arg5 harg5 arg6 harg6 arg7 harg7 arg8 harg8 hc0 hc1 hc2 hc3 x0 x1 x2 xs0 xs1 xs2 = k0_pay8 (k0_pay6 x0 x1 xs0) (k0_pay7 x0 x1 xs1) x2 xs2 := by
  unfold sout0_E_2
  rw [View.read_writes_eq_canon _ _ _ (scover0_E_2 c i arg2 harg2 arg3 harg3 arg4 harg4 arg5 harg5 arg6 harg6 arg7 harg7 arg8 harg8 hc0 hc1 hc2 hc3 x0 x1 x2 xs0 xs1 xs2)]
  unfold kernelRun0_E
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

/-- The last point: the output block is the accumulator divided by the count. -/
theorem outE (c : Dev nD) (i : grid0.Coords) (arg2 : Memref sig .tc .vmem S256x256 .f32) (harg2 : arg2.IsWhole) (arg3 : Memref sig .tc .vmem S100x256 .f32) (harg3 : arg3.IsWhole) (arg4 : Memref sig .tc .vmem S256x1 .i32) (harg4 : arg4.IsWhole) (arg5 : Memref sig .tc .vmem S1x1 .f32) (harg5 : arg5.IsWhole) (arg6 : Memref sig .tc .vmem S256x100 .f32) (harg6 : arg6.IsWhole) (arg7 : Memref sig .tc .vmem S256x100 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i)
    (x0 : Vec F S256x256 .f32) (x1 : Vec F S100x256 .f32) (x2 : Vec F S256x1 .i32) (xs0 : Vec F S256x100 .f32) (xs1 : Vec F S256x100 .f32) (xs2 : Vec F S1x1 .f32) :
    out0_E_3 c i arg2 harg2 arg3 harg3 arg4 harg4 arg5 harg5 arg6 harg6 arg7 harg7 arg8 harg8 hc0 hc1 hc2 hc3 x0 x1 x2 xs0 xs1 xs2 = k0_pay1 (k0_pay8 (k0_pay6 x0 x1 xs0) (k0_pay7 x0 x1 xs1) x2 xs2) := by
  unfold out0_E_3
  rw [View.read_writes_eq_canon _ _ _ (cover0_E_3 c i arg2 harg2 arg3 harg3 arg4 harg4 arg5 harg5 arg6 harg6 arg7 harg7 arg8 harg8 hc0 hc1 hc2 hc3 x0 x1 x2 xs0 xs1 xs2)]
  unfold kernelRun0_E
  dsimp only
  sl_unfold_words
  simp only [View.canon_cons_unit_zero (S := S256x100) hz, View.canon_cons_unit_zero (S := S1x1) hz,
    View.readCov_unit_zero (S := S256x100) _ hz, View.readCov_unit_zero (S := S1x1) _ hz, View.readAt_eq_ld,
    harg2.read_unread, harg3.read_unread, harg4.read_unread, harg5.read_unread, harg6.read_unread, harg7.read_unread, harg8.read_unread,
    View.ld_unit_zero (S := S256x256) hz, View.ld_unit_zero (S := S100x256) hz, View.ld_unit_zero (S := S256x1) hz,
    View.ld_unit_zero (S := S256x100) hz, View.ld_unit_zero (S := S1x1) hz]

end Cert.KernelIdeal.Pieces

end
-- ==== Proof.Steps.lean ====
import proofs.«161679_j52613349376866_1_alg».proof.Proof.Gen.KernelIdeal.Frame
import Idealize.ShloMosaic.Lib.Pipeline.Value
import Idealize.ShloMosaic.Lib.Tactic
import proofs.«161679_j52613349376866_1_alg».proof.Proof.Pieces
set_option maxRecDepth 16384

noncomputable section

open Idealize.ShloMosaic Idealize.ShloMosaic.TcCoe Idealize.SL.Sem
open Idealize.ShloMosaic.Pipeline (Dat)

/-! What the three carried scratch buffers hold after a grid point, in terms of the point's input blocks and of what
    the point before left — one equation per control case. The 32 points are numbered row tile by row tile
    (`t = 4·b + d`, `b` the row tile, `d` the column tile): point 0 starts everything; `d = 0` restarts the running
    maximum and minimum; `d = 3` also adds to the accumulator; point 31 also writes the output block. -/

namespace Cert.KernelIdeal.Steps

open Cert.KernelIdeal Cert.KernelIdeal.Gen

variable {F : FTy → Type} [FloatOps F]
variable (m : (ℓ : Loc nD τ sig) → Buf (Elt F) ℓ)

/-- What the point before `t` left (at `t = 0`: point 0 itself, never consulted). -/
abbrev prev (c : Dev nD) (t : Fin cfg0.N) : Vec F S1x1 .f32 × Vec F S256x100 .f32 × Vec F S256x100 .f32 × Vec F S1x1 .f32 :=
  outsAt0 m c (t.val - 1) (Nat.lt_of_le_of_lt (Nat.sub_le _ _) t.isLt)

/-- The running maximum after `t`, continuing from `v`. -/
abbrev hiOf (c : Dev nD) (t : Fin cfg0.N) (v : Vec F S256x100 .f32) : Vec F S256x100 .f32 :=
  k0_pay6 (iblk m c 0 t) (iblk m c 1 t) v
/-- The running minimum after `t`, continuing from `v`. -/
abbrev loOf (c : Dev nD) (t : Fin cfg0.N) (v : Vec F S256x100 .f32) : Vec F S256x100 .f32 :=
  k0_pay7 (iblk m c 0 t) (iblk m c 1 t) v

theorem lt32 (t : Fin cfg0.N) : t.val < 32 := lt_of_lt_of_eq t.isLt (show cfg0.N = 32 from N_0)

/-- Point 0. -/
theorem first (c : Dev nD) (t : Fin cfg0.N) (h0 : t.val % 32 = 0) :
    (outsAt0 m c t.val t.isLt).2 = (hiOf m c t k0_pay3, loOf m c t k0_pay4, k0_pay2) := by
  have hN := lt32 t
  rw [outsAt0_A m c t h0 (by omega) (by omega) (by omega)]
  refine Prod.ext ?_ (Prod.ext ?_ ?_) <;> dsimp only
  · exact Pieces.hiA ..
  · exact Pieces.loA ..
  · exact Pieces.accA ..

/-- The first column tile of a later row tile. -/
theorem restart (c : Dev nD) (t : Fin cfg0.N) (h0 : ¬t.val % 32 = 0) (h1 : t.val % 4 = 0) :
    (outsAt0 m c t.val t.isLt).2 = (hiOf m c t k0_pay3, loOf m c t k0_pay4, (prev m c t).2.2.2) := by
  have hN := lt32 t
  rw [outsAt0_D m c t h0 h1 (by omega) (by omega)]
  refine Prod.ext ?_ (Prod.ext ?_ rfl) <;> dsimp only
  · exact Pieces.hiD ..
  · exact Pieces.loD ..

/-- A middle column tile. -/
theorem middle (c : Dev nD) (t : Fin cfg0.N) (h1 : ¬t.val % 4 = 0) (h2 : ¬t.val % 4 = 3) :
    (outsAt0 m c t.val t.isLt).2 = (hiOf m c t (prev m c t).2.1, loOf m c t (prev m c t).2.2.1, (prev m c t).2.2.2) := by
  have hN := lt32 t
  rw [outsAt0_B m c t (by omega) h1 h2 (by omega)]
  refine Prod.ext ?_ (Prod.ext ?_ rfl) <;> dsimp only
  · exact Pieces.hiB ..
  · exact Pieces.loB ..

/-- The last column tile of a row tile other than the last. -/
theorem last (c : Dev nD) (t : Fin cfg0.N) (h2 : t.val % 4 = 3) (h3 : ¬t.val % 32 = 31) :
    (outsAt0 m c t.val t.isLt).2 = (hiOf m c t (prev m c t).2.1, loOf m c t (prev m c t).2.2.1,
      k0_pay8 (hiOf m c t (prev m c t).2.1) (loOf m c t (prev m c t).2.2.1) (iblk m c 2 t) (prev m c t).2.2.2) := by
  have hN := lt32 t
  rw [outsAt0_C m c t (by omega) (by omega) h2 h3]
  refine Prod.ext ?_ (Prod.ext ?_ ?_) <;> dsimp only
  · exact Pieces.hiC ..
  · exact Pieces.loC ..
  · exact Pieces.accC ..

/-- Point 31: the scratch buffers as at any last column tile, -/
theorem final (c : Dev nD) (t : Fin cfg0.N) (h3 : t.val % 32 = 31) :
    (outsAt0 m c t.val t.isLt).2 = (hiOf m c t (prev m c t).2.1, loOf m c t (prev m c t).2.2.1,
      k0_pay8 (hiOf m c t (prev m c t).2.1) (loOf m c t (prev m c t).2.2.1) (iblk m c 2 t) (prev m c t).2.2.2) := by
  have hN := lt32 t
  rw [outsAt0_E m c t (by omega) (by omega) (by omega) h3]
  refine Prod.ext ?_ (Prod.ext ?_ ?_) <;> dsimp only
  · exact Pieces.hiE ..
  · exact Pieces.loE ..
  · exact Pieces.accE ..

/-- and the output block at the new accumulator divided by the count. -/
theorem final_out (c : Dev nD) (t : Fin cfg0.N) (h3 : t.val % 32 = 31) :
    (outsAt0 m c t.val t.isLt).1
      = k0_pay1 (k0_pay8 (hiOf m c t (prev m c t).2.1) (loOf m c t (prev m c t).2.2.1) (iblk m c 2 t) (prev m c t).2.2.2) := by
  have hN := lt32 t
  rw [outsAt0_E m c t (by omega) (by omega) (by omega) h3]
  dsimp only
  exact Pieces.outE ..

/-! The same equations, one component at a time. -/

/-- The running maximum. -/
theorem first_hi (c : Dev nD) (t : Fin cfg0.N) (h0 : t.val % 32 = 0) :
    (outsAt0 m c t.val t.isLt).2.1 = hiOf m c t k0_pay3 := by
  have h := congrArg (fun x => x.1) (first m c t h0)
  dsimp only at h
  exact h

/-- The running minimum. -/
theorem first_lo (c : Dev nD) (t : Fin cfg0.N) (h0 : t.val % 32 = 0) :
    (outsAt0 m c t.val t.isLt).2.2.1 = loOf m c t k0_pay4 := by
  have h := congrArg (fun x => x.2.1) (first m c t h0)
  dsimp only at h
  exact h

/-- The accumulator. -/
theorem first_acc (c : Dev nD) (t : Fin cfg0.N) (h0 : t.val % 32 = 0) :
    (outsAt0 m c t.val t.isLt).2.2.2 = k0_pay2 := by
  have h := congrArg (fun x => x.2.2) (first m c t h0)
  dsimp only at h
  exact h

/-- The running maximum. -/
theorem restart_hi (c : Dev nD) (t : Fin cfg0.N) (h0 : ¬t.val % 32 = 0) (h1 : t.val % 4 = 0) :
    (outsAt0 m c t.val t.isLt).2.1 = hiOf m c t k0_pay3 := by
  have h := congrArg (fun x => x.1) (restart m c t h0 h1)
  dsimp only at h
  exact h

/-- The running minimum. -/
theorem restart_lo (c : Dev nD) (t : Fin cfg0.N) (h0 : ¬t.val % 32 = 0) (h1 : t.val % 4 = 0) :
    (outsAt0 m c t.val t.isLt).2.2.1 = loOf m c t k0_pay4 := by
  have h := congrArg (fun x => x.2.1) (restart m c t h0 h1)
  dsimp only at h
  exact h

/-- The accumulator. -/
theorem restart_acc (c : Dev nD) (t : Fin cfg0.N) (h0 : ¬t.val % 32 = 0) (h1 : t.val % 4 = 0) :
    (outsAt0 m c t.val t.isLt).2.2.2 = (prev m c t).2.2.2 := by
  have h := congrArg (fun x => x.2.2) (restart m c t h0 h1)
  dsimp only at h
  exact h

/-- The running maximum. -/
theorem middle_hi (c : Dev nD) (t : Fin cfg0.N) (h1 : ¬t.val % 4 = 0) (h2 : ¬t.val % 4 = 3) :
    (outsAt0 m c t.val t.isLt).2.1 = hiOf m c t (prev m c t).2.1 := by
  have h := congrArg (fun x => x.1) (middle m c t h1 h2)
  dsimp only at h
  exact h

/-- The running minimum. -/
theorem middle_lo (c : Dev nD) (t : Fin cfg0.N) (h1 : ¬t.val % 4 = 0) (h2 : ¬t.val % 4 = 3) :
    (outsAt0 m c t.val t.isLt).2.2.1 = loOf m c t (prev m c t).2.2.1 := by
  have h := congrArg (fun x => x.2.1) (middle m c t h1 h2)
  dsimp only at h
  exact h

/-- The accumulator. -/
theorem middle_acc (c : Dev nD) (t : Fin cfg0.N) (h1 : ¬t.val % 4 = 0) (h2 : ¬t.val % 4 = 3) :
    (outsAt0 m c t.val t.isLt).2.2.2 = (prev m c t).2.2.2 := by
  have h := congrArg (fun x => x.2.2) (middle m c t h1 h2)
  dsimp only at h
  exact h

/-- The running maximum. -/
theorem last_hi (c : Dev nD) (t : Fin cfg0.N) (h2 : t.val % 4 = 3) (h3 : ¬t.val % 32 = 31) :
    (outsAt0 m c t.val t.isLt).2.1 = hiOf m c t (prev m c t).2.1 := by
  have h := congrArg (fun x => x.1) (last m c t h2 h3)
  dsimp only at h
  exact h

/-- The running minimum. -/
theorem last_lo (c : Dev nD) (t : Fin cfg0.N) (h2 : t.val % 4 = 3) (h3 : ¬t.val % 32 = 31) :
    (outsAt0 m c t.val t.isLt).2.2.1 = loOf m c t (prev m c t).2.2.1 := by
  have h := congrArg (fun x => x.2.1) (last m c t h2 h3)
  dsimp only at h
  exact h

/-- The accumulator. -/
theorem last_acc (c : Dev nD) (t : Fin cfg0.N) (h2 : t.val % 4 = 3) (h3 : ¬t.val % 32 = 31) :
    (outsAt0 m c t.val t.isLt).2.2.2 = k0_pay8 (hiOf m c t (prev m c t).2.1) (loOf m c t (prev m c t).2.2.1) (iblk m c 2 t) (prev m c t).2.2.2 := by
  have h := congrArg (fun x => x.2.2) (last m c t h2 h3)
  dsimp only at h
  exact h

/-- The running maximum. -/
theorem final_hi (c : Dev nD) (t : Fin cfg0.N) (h3 : t.val % 32 = 31) :
    (outsAt0 m c t.val t.isLt).2.1 = hiOf m c t (prev m c t).2.1 := by
  have h := congrArg (fun x => x.1) (final m c t h3)
  dsimp only at h
  exact h

/-- The running minimum. -/
theorem final_lo (c : Dev nD) (t : Fin cfg0.N) (h3 : t.val % 32 = 31) :
    (outsAt0 m c t.val t.isLt).2.2.1 = loOf m c t (prev m c t).2.2.1 := by
  have h := congrArg (fun x => x.2.1) (final m c t h3)
  dsimp only at h
  exact h

/-- The accumulator. -/
theorem final_acc (c : Dev nD) (t : Fin cfg0.N) (h3 : t.val % 32 = 31) :
    (outsAt0 m c t.val t.isLt).2.2.2 = k0_pay8 (hiOf m c t (prev m c t).2.1) (loOf m c t (prev m c t).2.2.1) (iblk m c 2 t) (prev m c t).2.2.2 := by
  have h := congrArg (fun x => x.2.2) (final m c t h3)
  dsimp only at h
  exact h

end Cert.KernelIdeal.Steps

end
-- ==== Proof.PayloadAt.lean ====
import proofs.«161679_j52613349376866_1_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import Idealize.ShloMosaic.PureOps.Ideal.Laws
import proofs.«161679_j52613349376866_1_alg».proof.Proof.Spec
set_option maxRecDepth 16384

noncomputable section

open Idealize.ShloMosaic Idealize.ShloMosaic.TcCoe Idealize.SL.Sem
open Idealize.ShloMosaic.Pipeline (Dat)

/-! The body's arithmetic, read at an index on the extended reals.
    The difference tensor at (r, c, k) is x[r, k] − centers[c, k]; the update of the running maximum at (r, c) is the
    old value joined with the maximum, from −∞, of the 256 differences of this column tile, and dually for the
    minimum; the accumulator's update adds the sum over the tile's 256 × 100 entries of (maximum − minimum), kept
    where the row's label is not the class and 0 elsewhere. -/

namespace Cert.KernelIdeal.PayloadAt

open Cert.KernelIdeal Cert.KernelIdeal.Gen Idealize.ShloMosaic.ValueIdx Tropical

/-- Inserting the column coordinate `k` into the entry index (r, c) gives (r, c, k). -/
theorem lift_eq (h : S256x100x256.Reduces [2] S256x100) (r : Fin 256) (c : Fin 100) (k : Fin 256) :
    h.lift (ix2 r c) k = ix3 r c k := by
  funext a
  match a with
  | ⟨0, _⟩ => exact Fin.ext rfl
  | ⟨1, _⟩ => exact Fin.ext rfl
  | ⟨2, _⟩ => exact Fin.ext rfl

/-- The difference tensor: entry (r, c, k) is x[r, k] − centers[c, k]. -/
theorem diff_apply (x0 : Vec Ideal S256x256 .f32) (x1 : Vec Ideal S100x256 .f32) (r : Fin 256) (c : Fin 100) (k : Fin 256) :
    k0_pay5 x0 x1 (ix3 r c k) = x0 (ix2 r k) - x1 (ix2 c k) := by
  unfold k0_pay5
  rw [subf_apply]
  congr 1
  · rw [broadcastTo_apply _ _ (ix3 r c k) (ix3 r (0 : Fin 1) k) (fun a => by match a with | ⟨0, _⟩ => rfl | ⟨1, _⟩ => rfl | ⟨2, _⟩ => rfl)]
    refine shapeCast_apply _ _ _ (ix2 r k) ?_
    rw [Shape.rowMajor_val_two, Shape.rowMajor_val_three]
    show (r.val * 256 + k.val) = (r.val * 1 + 0) * 256 + k.val
    omega
  · rw [broadcastTo_apply _ _ (ix3 r c k) (ix3 (0 : Fin 1) c k) (fun a => by match a with | ⟨0, _⟩ => rfl | ⟨1, _⟩ => rfl | ⟨2, _⟩ => rfl)]
    refine shapeCast_apply _ _ _ (ix2 c k) ?_
    rw [Shape.rowMajor_val_two, Shape.rowMajor_val_three]
    show (c.val * 256 + k.val) = (0 * 100 + c.val) * 256 + k.val
    omega

/-- The running maximum's update at entry (r, c). -/
theorem hi_apply (x0 : Vec Ideal S256x256 .f32) (x1 : Vec Ideal S100x256 .f32) (v : Vec Ideal S256x100 .f32) (r : Fin 256) (c : Fin 100) :
    k0_pay6 x0 x1 v (ix2 r c)
      = max (v (ix2 r c)) ((Finset.univ : Finset (Fin 256)).fold max negInf (fun k => x0 (ix2 r k) - x1 (ix2 c k))) := by
  unfold k0_pay6
  dsimp only
  rw [shapeCast_self, maximumf_apply]
  refine congrArg (max _) ?_
  refine (Ideal.multiReduction_maximumf_single (k0_pay5 x0 x1) 0xFF800000#32 reduces_S256x100x256_S256x100 (.inl rfl) rfl (ix2 r c)).trans ?_
  refine congrArg (fun f : Fin 256 → EReal => Finset.fold max negInf f Finset.univ) (funext fun (k : Fin 256) => ?_)
  exact (congrArg (k0_pay5 x0 x1) (lift_eq reduces_S256x100x256_S256x100 r c k)).trans (diff_apply x0 x1 r c k)

/-- The running minimum's update at entry (r, c). -/
theorem lo_apply (x0 : Vec Ideal S256x256 .f32) (x1 : Vec Ideal S100x256 .f32) (v : Vec Ideal S256x100 .f32) (r : Fin 256) (c : Fin 100) :
    k0_pay7 x0 x1 v (ix2 r c)
      = min (v (ix2 r c)) ((Finset.univ : Finset (Fin 256)).fold min posInf (fun k => x0 (ix2 r k) - x1 (ix2 c k))) := by
  unfold k0_pay7
  dsimp only
  rw [shapeCast_self, minimumf_apply]
  refine congrArg (min _) ?_
  refine (multiReduction_minimumf_eq_fold (k0_pay5 x0 x1) 0x7F800000#32 reduces_S256x100x256_S256x100 (.inl rfl) rfl (ix2 r c)).trans ?_
  refine (reduces_S256x100x256_S256x100.fold_filter_drop_single FloatOps.minimumf (FloatOps.ofBits .f32 0x7F800000#32) (k0_pay5 x0 x1) (ix2 r c)).trans ?_
  refine congrArg (fun f : Fin 256 → EReal => Finset.fold min posInf f Finset.univ) (funext fun (k : Fin 256) => ?_)
  exact (congrArg (k0_pay5 x0 x1) (lift_eq reduces_S256x100x256_S256x100 r c k)).trans (diff_apply x0 x1 r c k)

/-- A total sum passes through a reshape: the reshape is a bijection of the index sets. -/
theorem sum_shapeCast {s t : Shape} (x : s.Idx → EReal) (h : s.ShapeCasts t) :
    ∑ j : t.Idx, shapeCast t x h j = ∑ i : s.Idx, x i :=
  Equiv.sum_comp (Shape.reshapeEquiv h) x

/-- The accumulator's update: the old value plus the tile's masked sum of (maximum − minimum). -/
theorem acc_apply (hi lo : Vec Ideal S256x100 .f32) (lab : Vec Ideal S256x1 .i32) (acc : Vec Ideal S1x1 .f32) (i : S1x1.Idx) :
    k0_pay8 hi lo lab acc i
      = acc i + ∑ r : Fin 256, ∑ c : Fin 100,
          Scalar.select (IntOp.cmpi .ne (lab (ix2 r (0 : Fin 1))) (BitVec.ofNat 32 c.val)) (hi (ix2 r c) - lo (ix2 r c)) zero32 := by
  unfold k0_pay8
  rw [shapeCast_self, addf_apply, broadcast_apply]
  refine congrArg (acc i + ·) ?_
  unfold extractAt
  refine (shapeCast_apply _ _ _ (ix1 (0 : Fin 1)) ?_).trans ?_
  · rw [Shape.rowMajor_val_one, Shape.rowMajor_val_three]; rfl
  refine (Ideal.multiReduction_add_total _ 0x00000000#32 reduces_S1x256x100_S1 (by decide) (.inl rfl) rfl (ix1 (0 : Fin 1))).trans ?_
  refine (sum_shapeCast _ _).trans ?_
  rw [sum_idx2]
  refine Finset.sum_congr rfl fun r _ => Finset.sum_congr rfl fun c _ => ?_
  rw [select_apply, subf_apply, broadcast_apply]
  refine congrArg (fun b => Scalar.select b (hi (ix2 r c) - lo (ix2 r c)) zero32) ?_
  show IntOp.cmpi .ne (broadcastTo S256x100 (shapeCast S256x1 lab shapeCasts_S256x1_S256x1) broadcasts_S256x1_S256x100 (ix2 r c))
      (iota .tc S256x100 32 [1] iota_S256x100_d1_w32 (ix2 r c)) = _
  rw [iota_single_apply, shapeCast_self,
    broadcastTo_apply _ _ (ix2 r c) (ix2 r (0 : Fin 1)) (fun a => by match a with | ⟨0, _⟩ => rfl | ⟨1, _⟩ => rfl)]

/-- The output block: the accumulator divided by the count. -/
theorem out_apply (acc : Vec Ideal S1x1 .f32) (i : S1x1.Idx) : k0_pay1 acc i = Ideal.div (acc i) count := by
  unfold k0_pay1
  rw [divf_apply, broadcast_apply]
  rfl

/-- The values the first column tile of a row tile starts from, and the accumulator's start. -/
theorem negInf_apply (i : S256x100.Idx) : k0_pay3 (F := Ideal) i = negInf := by
  unfold k0_pay3; rw [shapeCast_self, broadcast_apply]; rfl
theorem posInf_apply (i : S256x100.Idx) : k0_pay4 (F := Ideal) i = posInf := by
  unfold k0_pay4; rw [shapeCast_self, broadcast_apply]; rfl
theorem zero_apply (i : S1x1.Idx) : k0_pay2 (F := Ideal) i = zero32 := by
  unfold k0_pay2; rw [shapeCast_self, broadcast_apply]; rfl

end Cert.KernelIdeal.PayloadAt

end
-- ==== Proof.Blocks.lean ====
import proofs.«161679_j52613349376866_1_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
import proofs.«161679_j52613349376866_1_alg».proof.Proof.Spec
set_option maxRecDepth 16384

noncomputable section

open Idealize.ShloMosaic Idealize.ShloMosaic.TcCoe Idealize.SL.Sem
open Idealize.ShloMosaic.Pipeline (Dat)

/-! Which entries of the argument arrays a grid point's input blocks hold. At point `t = 4·b + d`: the features' block
    is rows `256 b …` and columns `256 d …`; the centers' block is all 100 classes and columns `256 d …`; the labels'
    block is rows `256 b …` of the labels reshaped to one column. -/

namespace Cert.KernelIdeal.Blocks

open Cert.KernelIdeal Cert.KernelIdeal.Gen Idealize.ShloMosaic.ValueIdx Tropical

variable {F : FTy → Type} [FloatOps F]
variable (m : (ℓ : Loc nD τ sig) → Buf (Elt F) ℓ)

theorem lt32 (t : Fin cfg0.N) : t.val < 32 := lt_of_lt_of_eq t.isLt (show cfg0.N = 32 from N_0)

/-- The three index maps over the grid: (b, d), (0, d) and (b, 0). -/
theorem idx_x : ∀ t : Fin cfg0.N, win0_0.index t (0 : Fin 2) = t.val / 4 ∧ win0_0.index t (1 : Fin 2) = t.val % 4 :=
  (by decide +kernel : ∀ t : Fin grid0.N, _)
theorem idx_c : ∀ t : Fin cfg0.N, win0_1.index t (0 : Fin 2) = 0 ∧ win0_1.index t (1 : Fin 2) = t.val % 4 :=
  (by decide +kernel : ∀ t : Fin grid0.N, _)
theorem idx_l : ∀ t : Fin cfg0.N, win0_2.index t (0 : Fin 2) = t.val / 4 ∧ win0_2.index t (1 : Fin 2) = 0 :=
  (by decide +kernel : ∀ t : Fin grid0.N, _)

/-- The features' block. -/
theorem x_apply (c : Dev nD) (t : Fin cfg0.N) (r k : Fin 256) :
    (iblk m c 0 t : Vec F S256x256 .f32) (ix2 r k) = V m c main_arg0 (ix2 (row (t.val / 4) r) (col (t.val % 4) k)) := by
  have hN := lt32 t
  unfold iblk
  rw [View.read_apply]
  show V m c main_arg0 _ = V m c main_arg0 _
  congr 1
  funext a
  apply Fin.ext
  match a with
  | ⟨0, _⟩ =>
    show win0_0.index t 0 * 256 + 1 * r.val = (row (t.val / 4) r).val
    rw [(idx_x t).1, row_val (by omega)]; omega
  | ⟨1, _⟩ =>
    show win0_0.index t 1 * 256 + 1 * k.val = (col (t.val % 4) k).val
    rw [(idx_x t).2, col_val (by omega)]; omega

/-- The centers' block. -/
theorem c_apply (c : Dev nD) (t : Fin cfg0.N) (cc : Fin 100) (k : Fin 256) :
    (iblk m c 1 t : Vec F S100x256 .f32) (ix2 cc k) = V m c main_arg2 (ix2 cc (col (t.val % 4) k)) := by
  have hN := lt32 t
  unfold iblk
  rw [View.read_apply]
  show V m c main_arg2 _ = V m c main_arg2 _
  congr 1
  funext a
  apply Fin.ext
  match a with
  | ⟨0, _⟩ =>
    show win0_1.index t 0 * 100 + 1 * cc.val = cc.val
    rw [(idx_c t).1]; omega
  | ⟨1, _⟩ =>
    show win0_1.index t 1 * 256 + 1 * k.val = (col (t.val % 4) k).val
    rw [(idx_c t).2, col_val (by omega)]; omega

/-- The labels' block, off the labels as one column. -/
theorem l_apply (c : Dev nD) (t : Fin cfg0.N) (r : Fin 256) :
    (iblk m c 2 t : Vec F S256x1 .i32) (ix2 r (0 : Fin 1)) = V m c main_v0 (ix2 (row (t.val / 4) r) (0 : Fin 1)) := by
  have hN := lt32 t
  unfold iblk
  rw [View.read_apply]
  show V m c main_v0 _ = V m c main_v0 _
  congr 1
  funext a
  apply Fin.ext
  match a with
  | ⟨0, _⟩ =>
    show win0_2.index t 0 * 256 + 1 * r.val = (row (t.val / 4) r).val
    rw [(idx_l t).1, row_val (by omega)]; omega
  | ⟨1, _⟩ =>
    show win0_2.index t 1 * 1 + 1 * 0 = 0
    rw [(idx_l t).2]

/-- The labels as one column are the labels: the host's reshape before the call keeps the row-major position. -/
theorem labels_eq (c : Dev nD) (R : Fin 2048) :
    V m c main_v0 (ix2 R (0 : Fin 1)) = m ((c : Thread nD τ).loc main_arg1) (ix1 R) := by
  have e : (V m c main_v0 : S2048x1.Idx → Elt F .i32)
      = shapeCast S2048x1 (m ((c : Thread nD τ).loc main_arg1)) shapeCasts_S2048_S2048x1 := by
    show StableHlo.after hostOps0 (fun b => m (c, b)) (Proc.devRef .tc main_v0) = _
    after_results
    rfl
  rw [e]
  refine shapeCast_apply _ _ _ (ix1 R) ?_
  rw [Shape.rowMajor_val_one, Shape.rowMajor_val_two]
  show R.val = R.val * 1 + 0
  omega

end Cert.KernelIdeal.Blocks

end
-- ==== Proof.Invariant.lean ====
import proofs.«161679_j52613349376866_1_alg».proof.Proof.Gen.KernelIdeal.Frame
import Idealize.ShloMosaic.Lib.Pipeline.Value
import Idealize.ShloMosaic.Lib.Tactic
import Idealize.ShloMosaic.Lib.ValueIdx
import proofs.«161679_j52613349376866_1_alg».proof.Proof.Spec
import proofs.«161679_j52613349376866_1_alg».proof.Proof.Steps
import proofs.«161679_j52613349376866_1_alg».proof.Proof.PayloadAt
import proofs.«161679_j52613349376866_1_alg».proof.Proof.Blocks
set_option maxRecDepth 16384

noncomputable section

open Idealize.ShloMosaic Idealize.ShloMosaic.TcCoe Idealize.SL.Sem
open Idealize.ShloMosaic.Pipeline (Dat)

/-! The invariant of the grid, on the extended reals. After point `n = 4·b + d`:
    the running maximum at (r, c) is the maximum, from −∞, of the differences between row `256 b + r` and center `c`
    over the first `256 (d + 1)` columns; the running minimum dually; the accumulator is the sum, from 0, of the
    partial sums of the row tiles completed so far. It holds at point 0 and is kept by every control case, so at
    point 31 the output block is the loss. -/

namespace Cert.KernelIdeal.Invariant

open Cert.KernelIdeal Cert.KernelIdeal.Gen Idealize.ShloMosaic.ValueIdx Tropical

variable (m : (ℓ : Loc nD τ sig) → Buf (Elt Ideal) ℓ) (c : Dev nD)

/-- The argument arrays as the call finds them, by coordinates. -/
def X : Fin 2048 → Fin 1024 → EReal := fun R k => V m c main_arg0 (ix2 R k)
def C : Fin 100 → Fin 1024 → EReal := fun cc k => V m c main_arg2 (ix2 cc k)
def L : Fin 2048 → BitVec 32 := fun R => V m c main_v0 (ix2 R (0 : Fin 1))

theorem lt32 (t : Fin cfg0.N) : t.val < 32 := lt_of_lt_of_eq t.isLt (show cfg0.N = 32 from N_0)

/-- The differences a point's blocks hold are those of row `256 b + r` over column tile `d`. -/
theorem diffs_eq (t : Fin cfg0.N) (r : Fin 256) (cc : Fin 100) (x0 : Vec Ideal S256x256 .f32) (x1 : Vec Ideal S100x256 .f32)
    (h0 : ∀ k : Fin 256, x0 (ix2 r k) = X m c (row (t.val / 4) r) (col (t.val % 4) k))
    (h1 : ∀ k : Fin 256, x1 (ix2 cc k) = C m c cc (col (t.val % 4) k)) :
    (fun k : Fin 256 => x0 (ix2 r k) - x1 (ix2 cc k))
      = fun k => X m c (row (t.val / 4) r) (col (t.val % 4) k) - C m c cc (col (t.val % 4) k) :=
  funext fun k => by rw [h0, h1]

/-- One more column tile joins the running maximum. -/
theorem hi_next (t : Fin cfg0.N) (v : Vec Ideal S256x100 .f32) (r : Fin 256) (cc : Fin 100)
    (hv : HiUpTo (X m c) (C m c) (256 * (t.val % 4)) (row (t.val / 4) r) cc (v (ix2 r cc))) :
    HiUpTo (X m c) (C m c) (256 * (t.val % 4 + 1)) (row (t.val / 4) r) cc (Steps.hiOf m c t v (ix2 r cc)) := by
  have hN := lt32 t
  have e : Steps.hiOf m c t v (ix2 r cc)
      = max (v (ix2 r cc)) ((Finset.univ : Finset (Fin 256)).fold max negInf
          (fun k => X m c (row (t.val / 4) r) (col (t.val % 4) k) - C m c cc (col (t.val % 4) k))) :=
    (PayloadAt.hi_apply (iblk m c 0 t) (iblk m c 1 t) v r cc).trans
      (congrArg (fun f : Fin 256 → EReal => max (v (ix2 r cc)) (Finset.fold max negInf f Finset.univ)) (diffs_eq m c t r cc (iblk m c 0 t) (iblk m c 1 t)
        (fun k => Blocks.x_apply m c t r k) (fun k => Blocks.c_apply m c t cc k)))
  rw [e]
  exact hiUpTo_step (X m c) (C m c) (by omega) _ _ _ hv

/-- One more column tile joins the running minimum. -/
theorem lo_next (t : Fin cfg0.N) (v : Vec Ideal S256x100 .f32) (r : Fin 256) (cc : Fin 100)
    (hv : LoUpTo (X m c) (C m c) (256 * (t.val % 4)) (row (t.val / 4) r) cc (v (ix2 r cc))) :
    LoUpTo (X m c) (C m c) (256 * (t.val % 4 + 1)) (row (t.val / 4) r) cc (Steps.loOf m c t v (ix2 r cc)) := by
  have hN := lt32 t
  have e : Steps.loOf m c t v (ix2 r cc)
      = min (v (ix2 r cc)) ((Finset.univ : Finset (Fin 256)).fold min posInf
          (fun k => X m c (row (t.val / 4) r) (col (t.val % 4) k) - C m c cc (col (t.val % 4) k))) :=
    (PayloadAt.lo_apply (iblk m c 0 t) (iblk m c 1 t) v r cc).trans
      (congrArg (fun f : Fin 256 → EReal => min (v (ix2 r cc)) (Finset.fold min posInf f Finset.univ)) (diffs_eq m c t r cc (iblk m c 0 t) (iblk m c 1 t)
        (fun k => Blocks.x_apply m c t r k) (fun k => Blocks.c_apply m c t cc k)))
  rw [e]
  exact loUpTo_step (X m c) (C m c) (by omega) _ _ _ hv

/-- At the last column tile the accumulator gains the row tile's partial sum. -/
theorem acc_next (t : Fin cfg0.N) (hd : t.val % 4 = 3) (hi' lo' : Vec Ideal S256x100 .f32) (acc : Vec Ideal S1x1 .f32)
    (hhi : ∀ r cc, HiUpTo (X m c) (C m c) (256 * (t.val % 4 + 1)) (row (t.val / 4) r) cc (hi' (ix2 r cc)))
    (hlo : ∀ r cc, LoUpTo (X m c) (C m c) (256 * (t.val % 4 + 1)) (row (t.val / 4) r) cc (lo' (ix2 r cc)))
    (i : S1x1.Idx) :
    k0_pay8 hi' lo' (iblk m c 2 t) acc i = acc i + tile (X m c) (L m c) (C m c) (t.val / 4) := by
  rw [PayloadAt.acc_apply hi' lo' (iblk m c 2 t) acc i]
  refine congrArg (acc i + ·) ?_
  unfold tile term
  refine Finset.sum_congr rfl fun r _ => Finset.sum_congr rfl fun cc _ => ?_
  have h1 := hhi r cc
  have h2 := hlo r cc
  rw [hd] at h1 h2
  rw [hiUpTo_full (X m c) (C m c) _ _ _ h1, loUpTo_full (X m c) (C m c) _ _ _ h2, Blocks.l_apply]
  rfl

/-- The first column tile of a row tile starts from −∞ and +∞. -/
theorem hi_start (t : Fin cfg0.N) (hd : t.val % 4 = 0) (r : Fin 256) (cc : Fin 100) :
    HiUpTo (X m c) (C m c) (256 * (t.val % 4)) (row (t.val / 4) r) cc (k0_pay3 (F := Ideal) (ix2 r cc)) := by
  rw [PayloadAt.negInf_apply, hd]; exact hiUpTo_zero _ _ _ _
theorem lo_start (t : Fin cfg0.N) (hd : t.val % 4 = 0) (r : Fin 256) (cc : Fin 100) :
    LoUpTo (X m c) (C m c) (256 * (t.val % 4)) (row (t.val / 4) r) cc (k0_pay4 (F := Ideal) (ix2 r cc)) := by
  rw [PayloadAt.posInf_apply, hd]; exact loUpTo_zero _ _ _ _

/-- The invariant after point `n`. -/
structure Holds (n : ℕ) (h : n < cfg0.N) : Prop where
  hi : ∀ (r : Fin 256) (cc : Fin 100),
    HiUpTo (X m c) (C m c) (256 * (n % 4 + 1)) (row (n / 4) r) cc ((outsAt0 m c n h).2.1 (ix2 r cc))
  lo : ∀ (r : Fin 256) (cc : Fin 100),
    LoUpTo (X m c) (C m c) (256 * (n % 4 + 1)) (row (n / 4) r) cc ((outsAt0 m c n h).2.2.1 (ix2 r cc))
  acc : ∀ i : S1x1.Idx, (outsAt0 m c n h).2.2.2 i = accsum (X m c) (L m c) (C m c) ((n + 1) / 4)

end Cert.KernelIdeal.Invariant

end
-- ==== Proof.InvStep.lean ====
import proofs.«161679_j52613349376866_1_alg».proof.Proof.Gen.KernelIdeal.Frame
import Idealize.ShloMosaic.Lib.Pipeline.Value
import Idealize.ShloMosaic.Lib.Tactic
import Idealize.ShloMosaic.Lib.ValueIdx
import proofs.«161679_j52613349376866_1_alg».proof.Proof.Invariant
set_option maxRecDepth 16384

noncomputable section

open Idealize.ShloMosaic Idealize.ShloMosaic.TcCoe Idealize.SL.Sem
open Idealize.ShloMosaic.Pipeline (Dat)

/-! The invariant is kept by every control case, so it holds after every point, and at the last point the output
    block holds the loss. -/

namespace Cert.KernelIdeal.Invariant

open Cert.KernelIdeal Cert.KernelIdeal.Gen Idealize.ShloMosaic.ValueIdx Tropical

variable (m : (ℓ : Loc nD τ sig) → Buf (Elt Ideal) ℓ) (c : Dev nD)

/-- A later column tile: the running maximum continues from the point before. -/
theorem cont_hi (t : Fin cfg0.N) (h1 : ¬t.val % 4 = 0)
    (ih : Holds m c (t.val - 1) (Nat.lt_of_le_of_lt (Nat.sub_le _ _) t.isLt)) (r : Fin 256) (cc : Fin 100) :
    HiUpTo (X m c) (C m c) (256 * (t.val % 4 + 1)) (row (t.val / 4) r) cc
      (Steps.hiOf m c t (Steps.prev m c t).2.1 (ix2 r cc)) := by
  have hN := lt32 t
  have e1 : (t.val - 1) % 4 + 1 = t.val % 4 := by omega
  have e2 : (t.val - 1) / 4 = t.val / 4 := by omega
  refine hi_next m c t _ r cc ?_
  have hprev := ih.hi r cc
  rw [e1, e2] at hprev
  exact hprev

/-- A later column tile: the running minimum continues from the point before. -/
theorem cont_lo (t : Fin cfg0.N) (h1 : ¬t.val % 4 = 0)
    (ih : Holds m c (t.val - 1) (Nat.lt_of_le_of_lt (Nat.sub_le _ _) t.isLt)) (r : Fin 256) (cc : Fin 100) :
    LoUpTo (X m c) (C m c) (256 * (t.val % 4 + 1)) (row (t.val / 4) r) cc
      (Steps.loOf m c t (Steps.prev m c t).2.2.1 (ix2 r cc)) := by
  have hN := lt32 t
  have e1 : (t.val - 1) % 4 + 1 = t.val % 4 := by omega
  have e2 : (t.val - 1) / 4 = t.val / 4 := by omega
  refine lo_next m c t _ r cc ?_
  have hprev := ih.lo r cc
  rw [e1, e2] at hprev
  exact hprev

/-- Point 0. -/
theorem step_first (t : Fin cfg0.N) (h0 : t.val % 32 = 0) : Holds m c t.val t.isLt := by
  have hN := lt32 t
  have h1 : t.val % 4 = 0 := by omega
  refine ⟨fun r cc => ?_, fun r cc => ?_, fun i => ?_⟩
  · rw [Steps.first_hi m c t h0]
    exact hi_next m c t _ r cc (hi_start m c t h1 r cc)
  · rw [Steps.first_lo m c t h0]
    exact lo_next m c t _ r cc (lo_start m c t h1 r cc)
  · have e0 : (t.val + 1) / 4 = 0 := by omega
    rw [e0, accsum_zero]
    exact (congrFun (Steps.first_acc m c t h0) i).trans (PayloadAt.zero_apply i)

/-- The first column tile of a later row tile: the running maximum and minimum restart, the accumulator is kept. -/
theorem step_restart (t : Fin cfg0.N) (h0 : ¬t.val % 32 = 0) (h1 : t.val % 4 = 0)
    (ih : Holds m c (t.val - 1) (Nat.lt_of_le_of_lt (Nat.sub_le _ _) t.isLt)) : Holds m c t.val t.isLt := by
  have hN := lt32 t
  refine ⟨fun r cc => ?_, fun r cc => ?_, fun i => ?_⟩
  · rw [Steps.restart_hi m c t h0 h1]
    exact hi_next m c t _ r cc (hi_start m c t h1 r cc)
  · rw [Steps.restart_lo m c t h0 h1]
    exact lo_next m c t _ r cc (lo_start m c t h1 r cc)
  · have hacc := ih.acc i
    have e3 : (t.val - 1 + 1) / 4 = (t.val + 1) / 4 := by omega
    rw [e3] at hacc
    exact (congrFun (Steps.restart_acc m c t h0 h1) i).trans hacc

/-- A middle column tile: the accumulator is kept. -/
theorem step_middle (t : Fin cfg0.N) (h1 : ¬t.val % 4 = 0) (h2 : ¬t.val % 4 = 3)
    (ih : Holds m c (t.val - 1) (Nat.lt_of_le_of_lt (Nat.sub_le _ _) t.isLt)) : Holds m c t.val t.isLt := by
  have hN := lt32 t
  refine ⟨fun r cc => ?_, fun r cc => ?_, fun i => ?_⟩
  · rw [Steps.middle_hi m c t h1 h2]
    exact cont_hi m c t h1 ih r cc
  · rw [Steps.middle_lo m c t h1 h2]
    exact cont_lo m c t h1 ih r cc
  · have hacc := ih.acc i
    have e3 : (t.val - 1 + 1) / 4 = (t.val + 1) / 4 := by omega
    rw [e3] at hacc
    exact (congrFun (Steps.middle_acc m c t h1 h2) i).trans hacc

/-- The last column tile of a row tile: the accumulator gains the row tile's partial sum. -/
theorem step_last (t : Fin cfg0.N) (h2 : t.val % 4 = 3)
    (ih : Holds m c (t.val - 1) (Nat.lt_of_le_of_lt (Nat.sub_le _ _) t.isLt)) : Holds m c t.val t.isLt := by
  have hN := lt32 t
  have h1 : ¬t.val % 4 = 0 := by omega
  have hH : (outsAt0 m c t.val t.isLt).2.1 = Steps.hiOf m c t (Steps.prev m c t).2.1 := by
    by_cases h3 : t.val % 32 = 31
    · exact Steps.final_hi m c t h3
    · exact Steps.last_hi m c t h2 h3
  have hL : (outsAt0 m c t.val t.isLt).2.2.1 = Steps.loOf m c t (Steps.prev m c t).2.2.1 := by
    by_cases h3 : t.val % 32 = 31
    · exact Steps.final_lo m c t h3
    · exact Steps.last_lo m c t h2 h3
  have hA : (outsAt0 m c t.val t.isLt).2.2.2 = k0_pay8 (Steps.hiOf m c t (Steps.prev m c t).2.1)
      (Steps.loOf m c t (Steps.prev m c t).2.2.1) (iblk m c 2 t) (Steps.prev m c t).2.2.2 := by
    by_cases h3 : t.val % 32 = 31
    · exact Steps.final_acc m c t h3
    · exact Steps.last_acc m c t h2 h3
  refine ⟨fun r cc => ?_, fun r cc => ?_, fun i => ?_⟩
  · rw [hH]
    exact cont_hi m c t h1 ih r cc
  · rw [hL]
    exact cont_lo m c t h1 ih r cc
  · have hacc : (Steps.prev m c t).2.2.2 i = accsum (X m c) (L m c) (C m c) ((t.val - 1 + 1) / 4) := ih.acc i
    have e3 : (t.val - 1 + 1) / 4 = t.val / 4 := by omega
    have e4 : (t.val + 1) / 4 = t.val / 4 + 1 := by omega
    rw [e3] at hacc
    refine ((congrFun hA i).trans (acc_next m c t h2 (Steps.hiOf m c t (Steps.prev m c t).2.1)
      (Steps.loOf m c t (Steps.prev m c t).2.2.1) (Steps.prev m c t).2.2.2 (cont_hi m c t h1 ih) (cont_lo m c t h1 ih) i)).trans ?_
    rw [hacc, e4, accsum_succ]

/-- One point: the invariant after `t` from the invariant after the point before (none is needed at point 0). -/
theorem step (t : Fin cfg0.N)
    (ih : t.val ≠ 0 → Holds m c (t.val - 1) (Nat.lt_of_le_of_lt (Nat.sub_le _ _) t.isLt)) :
    Holds m c t.val t.isLt := by
  have hN := lt32 t
  by_cases h0 : t.val % 32 = 0
  · exact step_first m c t h0
  · have ih' := ih (by omega)
    by_cases h1 : t.val % 4 = 0
    · exact step_restart m c t h0 h1 ih'
    · by_cases h2 : t.val % 4 = 3
      · exact step_last m c t h2 ih'
      · exact step_middle m c t h1 h2 ih'

/-- It holds after every point: by induction on the point's number. -/
theorem holds (k : ℕ) : ∀ t : Fin cfg0.N, t.val = k → Holds m c t.val t.isLt := by
  induction k with
  | zero => exact fun t ht => step m c t (fun h0 => absurd ht h0)
  | succ k ih =>
    intro t ht
    refine step m c t (fun _ => ?_)
    exact ih ⟨t.val - 1, Nat.lt_of_le_of_lt (Nat.sub_le _ _) t.isLt⟩ (by show t.val - 1 = k; omega)

/-- So at the last point the output block holds the loss. -/
theorem out_eq (t : Fin cfg0.N) (h3 : t.val % 32 = 31) (i : S1x1.Idx) :
    (outsAt0 m c t.val t.isLt).1 i = loss (X m c) (L m c) (C m c) := by
  have hN := lt32 t
  have ha := (holds m c t.val t rfl).acc i
  have e8 : (t.val + 1) / 4 = 8 := by omega
  rw [e8, accsum_eight] at ha
  have hk := (congrFun (Steps.final_acc m c t h3) i).symm.trans ha
  refine (congrFun (Steps.final_out m c t h3) i).trans ?_
  rw [PayloadAt.out_apply, hk]
  rfl

end Cert.KernelIdeal.Invariant

end
-- ==== Proof.KernelValue.lean ====
import proofs.«161679_j52613349376866_1_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
import proofs.«161679_j52613349376866_1_alg».proof.Proof.InvStep
set_option maxRecDepth 16384

noncomputable section

open Idealize.ShloMosaic Idealize.ShloMosaic.TcCoe Idealize.SL.Sem
open Idealize.ShloMosaic.Pipeline (Dat)

/-! The kernel's run, read: the one write-back of the output block happens at the last grid point and covers the
    1 × 1 output array, so that array ends holding the loss; the reshape to a scalar after the call keeps it; the
    argument arrays end unchanged. -/

namespace Cert.KernelIdeal.Result

open Cert.KernelIdeal Cert.KernelIdeal.Gen Idealize.ShloMosaic.ValueIdx Tropical

variable (m : (ℓ : Loc nD τ sig) → Buf (Elt Ideal) ℓ) (ρ : Dev nD → PrngReg)

/-- The output array: the loss at its one entry. -/
def outArr (c : Dev nD) : Buf (Elt Ideal) ((c : Thread nD τ).loc main_v1) :=
  fun _ => loss (Invariant.X m c) (Invariant.L m c) (Invariant.C m c)

/-- The output's block index never moves. -/
theorem idx_o : ∀ t : Fin cfg0.N, win0_3.index t (0 : Fin 2) = 0 ∧ win0_3.index t (1 : Fin 2) = 0 :=
  (by decide +kernel : ∀ t : Fin grid0.N, _)

/-- The last grid point. -/
abbrev tLast : Fin cfg0.N := ⟨31, by rw [show cfg0.N = 32 from N_0]; decide⟩

/-- The one write-back writes the loss. -/
theorem flushed_eq (c : Dev nD) (t : Fin cfg0.N) (hf : (cfg0.win 3).flush t = true) :
    (dats m 0 c).flushed 3 t = ((cfg0.win 3).blk t).view.read (Elt Ideal) (outArr m c) := by
  have h31 : t.val % 32 = 31 := (flush0_3 t).mp hf
  show (cfg0.win 3).cut (grid0.coords t) ((dats m 0 c).after 3 t) = _
  rw [after0_3, show (outsAt0 m c t.val t.isLt).1 = outArr m c from funext fun i => Invariant.out_eq m c t h31 i]
  have hz' : (fun a => win0_3.index t a * main_v1.ty.shape.size a) = fun _ => 0 := funext fun a => by
    match a with
    | ⟨0, _⟩ => show win0_3.index t 0 * _ = 0; rw [(idx_o t).1, Nat.zero_mul]
    | ⟨1, _⟩ => show win0_3.index t 1 * _ = 0; rw [(idx_o t).2, Nat.zero_mul]
  exact (Memref.read_access_unit_zero (Elt Ideal) main_v1 hz' (fun a => by rw [congrFun hz' a]; simp) (outArr m c)).symm

/-- So the output array ends holding the loss: the last point's block is the whole array. -/
theorem final_o (c : Dev nD) : (dats m 0 c).arrAt 3 cfg0.N = outArr m c :=
  (dats m 0 c).arrAt_eq_of_cover 3 (outArr m c) (flushed_eq m c) fun i =>
    ⟨tLast, (flush0_3 tLast).mpr rfl, by
      show i ∈ ((View.whole main_v1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [(idx_o tLast).1, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [(idx_o tLast).2, show win0_3.xsize (grid0.coords tLast) 1 = 1 from by decide +kernel]; omega⟩

/-- The arguments as the call finds them are the arguments. -/
theorem X_eq (c : Dev nD) : Invariant.X m c = fun R k => m ((c : Thread nD τ).loc main_arg0) (ix2 R k) := by
  funext R k; unfold Invariant.X; rw [V_main_arg0]
theorem C_eq (c : Dev nD) : Invariant.C m c = fun cc k => m ((c : Thread nD τ).loc main_arg2) (ix2 cc k) := by
  funext cc k; unfold Invariant.C; rw [V_main_arg2]
theorem L_eq (c : Dev nD) : Invariant.L m c = fun R => m ((c : Thread nD τ).loc main_arg1) (ix1 R) := by
  funext R; unfold Invariant.L; exact Blocks.labels_eq m c R

/-- The scalar result: the reshape after the call keeps the one entry. -/
theorem tail_eq (c : Dev nD) :
    Pipeline.afterTail₀ cfgs (dats m) 0 (V0 m) [hostOps1] c main_v2
      = fun _ => loss (Invariant.X m c) (Invariant.L m c) (Invariant.C m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1)
      = outArr m c :=
    (Pipeline.withArrays_arr spec0 launch0.win.arr_inj c _ _ 3).trans (final_o m c)
  rw [hw]
  rfl

/-- The run, read: the scalar result is the loss of the argument arrays, which end unchanged. -/
theorem run : θ_run defs (onTc (τ := τ) (main (F := Ideal))) ⟨m, fun _ => 0, ρ⟩ fun r => ∀ c : Dev nD,
      r.2.mem ((c.tc : Thread nD τ).loc main_v2)
        = (fun _ => loss (fun R k => m ((c.tc : Thread nD τ).loc main_arg0) (ix2 R k))
            (fun R => m ((c.tc : Thread nD τ).loc main_arg1) (ix1 R))
            (fun cc k => m ((c.tc : Thread nD τ).loc main_arg2) (ix2 cc k)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v2 (Pipeline.mem_restRefs_of main_v2 (by decide) (by decide))).trans (tail_eq m c)).trans
        (by rw [X_eq, L_eq, C_eq]),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Result

end
-- ==== Proof.RefSide.lean ====
import proofs.«161679_j52613349376866_1_alg».proof.Proof.Gen.ReferenceIdeal.Read
import Idealize.ShloMosaic.Lib.ValueIdx
import Idealize.ShloMosaic.PureOps.Ideal.Laws
import proofs.«161679_j52613349376866_1_alg».proof.Proof.Spec

set_option maxRecDepth 16384

noncomputable section

open Idealize.ShloMosaic Idealize.ShloMosaic.TcCoe Idealize.SL.Sem

/-! The reference, one operation at a time, is the loss of its arguments: the broadcast difference tensor at (R, c, k) is
    x[R, k] − centers[c, k]; its maximum and minimum over k, from −∞ and +∞, are `hi` and `lo`; the comparison of the
    broadcast labels with the class numbers is the mask; the sum over all rows and classes from 0 is `0 + total`; the
    quotient by the count is the loss. -/

namespace Cert.ReferenceIdeal.RefValue

open Cert.ReferenceIdeal Cert.ReferenceIdeal.Gen Cert.ReferenceIdeal.Read Idealize.ShloMosaic.ValueIdx Tropical

variable (x0 : (⟨S2048x1024, .f32⟩ : BufTy).Contents (Elt Ideal)) (x1 : (⟨S2048, .i32⟩ : BufTy).Contents (Elt Ideal))
  (x2 : (⟨S100x1024, .f32⟩ : BufTy).Contents (Elt Ideal))

/-- The arguments by coordinates. -/
abbrev Xr : Fin 2048 → Fin 1024 → EReal := fun R k => x0 (ix2 R k)
abbrev Lr : Fin 2048 → BitVec 32 := fun R => x1 (ix1 R)
abbrev Cr : Fin 100 → Fin 1024 → EReal := fun cc k => x2 (ix2 cc k)

/-- Inserting the column coordinate `k` into (R, c) gives (R, c, k). -/
theorem lift_eq (h : S2048x100x1024.Reduces [2] S2048x100) (R : Fin 2048) (cc : Fin 100) (k : Fin 1024) :
    h.lift (ix2 R cc) k = ix3 R cc k := by
  funext a
  match a with
  | ⟨0, _⟩ => exact Fin.ext rfl
  | ⟨1, _⟩ => exact Fin.ext rfl
  | ⟨2, _⟩ => exact Fin.ext rfl

/-- The difference tensor. -/
theorem diff_apply (R : Fin 2048) (cc : Fin 100) (k : Fin 1024) :
    val_main_v4 (F := Ideal) x0 x2 (ix3 R cc k) = x0 (ix2 R k) - x2 (ix2 cc k) := by
  rw [val_main_v4_apply, val_main_v2_apply, val_main_v0_apply, val_main_v3_apply, val_main_v1_apply]
  have e0 : idx_main_v0 (idx_main_v2 (ix3 R cc k)) = ix2 R k :=
    funext fun a => by match a with | ⟨0, _⟩ => rfl | ⟨1, _⟩ => rfl
  have e1 : idx_main_v1 (idx_main_v3 (ix3 R cc k)) = ix2 cc k :=
    funext fun a => by match a with | ⟨0, _⟩ => rfl | ⟨1, _⟩ => rfl
  rw [e0, e1]
  rfl

/-- The maximum over the columns. -/
theorem hi_eq (R : Fin 2048) (cc : Fin 100) :
    val_main_v5 (F := Ideal) x0 x2 (ix2 R cc) = hi (Xr x0) (Cr x2) R cc := by
  refine (Host.reduce_eq_fold_single (FloatOps.maximumf (F := Ideal) (φ := .f32)) (val_main_v4 (F := Ideal) x0 x2) (val_main_cst (F := Ideal))
    reducesTo_S2048x100x1024_S2048x100_d2 (by decide : S2048x100x1024.Reduces [2] S2048x100) h_S_ (ix2 R cc)).trans ?_
  refine congrArg (fun f : Fin 1024 → EReal => Finset.fold max negInf f Finset.univ) (funext fun (k : Fin 1024) => ?_)
  exact (congrArg (val_main_v4 (F := Ideal) x0 x2) (lift_eq _ R cc k)).trans (diff_apply x0 x2 R cc k)

/-- The minimum over the columns. -/
theorem lo_eq (R : Fin 2048) (cc : Fin 100) :
    val_main_v6 (F := Ideal) x0 x2 (ix2 R cc) = lo (Xr x0) (Cr x2) R cc := by
  refine (Host.reduce_eq_fold_single (FloatOps.minimumf (F := Ideal) (φ := .f32)) (val_main_v4 (F := Ideal) x0 x2) (val_main_cst_0 (F := Ideal))
    reducesTo_S2048x100x1024_S2048x100_d2 (by decide : S2048x100x1024.Reduces [2] S2048x100) h_S_ (ix2 R cc)).trans ?_
  refine congrArg (fun f : Fin 1024 → EReal => Finset.fold min posInf f Finset.univ) (funext fun (k : Fin 1024) => ?_)
  exact (congrArg (val_main_v4 (F := Ideal) x0 x2) (lift_eq _ R cc k)).trans (diff_apply x0 x2 R cc k)

/-- The mask: the row's label is not the class. -/
theorem mask_apply (R : Fin 2048) (cc : Fin 100) :
    val_main_v13 (F := Ideal) x1 (ix2 R cc) = IntOp.cmpi .ne (x1 (ix1 R)) (BitVec.ofNat 32 cc.val) := by
  rw [val_main_v13_apply, val_main_v11_apply, val_main_v9_apply, val_main_v12_apply, val_main_v10_apply, val_main_v8_apply]
  have e : idx_main_v9 (idx_main_v11 (ix2 R cc)) = ix1 R := funext fun a => by match a with | ⟨0, _⟩ => rfl
  rw [e]

/-- The value kept where the mask fails. -/
theorem zero_apply (R : Fin 2048) (cc : Fin 100) : val_main_call0_v1 (F := Ideal) (ix2 R cc) = zero32 := by
  rw [val_main_call0_v1_apply, val_main_call0_v0_apply, val_main_cst_1_apply]
  rfl

/-- The reference's result is the loss. -/
theorem result_eq : val_main_v16 (F := Ideal) x0 x1 x2 = fun _ => loss (Xr x0) (Lr x1) (Cr x2) := by
  funext i
  rw [val_main_v16_apply, val_main_v15_apply, val_main_cst_3_apply, val_main_cst_2_apply]
  unfold loss total
  show Ideal.div (zero32 + ∑ j : S2048x100.Idx, val_main_v14 (F := Ideal) x0 x1 x2 j) count = _
  rw [sum_idx2]
  refine congrArg (fun s => Ideal.div (zero32 + s) count) (Finset.sum_congr rfl fun R _ => Finset.sum_congr rfl fun cc _ => ?_)
  rw [val_main_v14_apply, val_main_v7_apply, mask_apply, hi_eq, lo_eq, zero_apply]
  rfl

end Cert.ReferenceIdeal.RefValue

end
-- ==== Proof.lean ====
/-
  The tropical proximity loss: a Pallas kernel against its jnp reference, equal on the extended reals.

  Both programs compute, for features x : 2048 × 1024, labels : 2048 and centers : 100 × 1024,
      loss = (0 + Σ_R Σ_c [label R ≠ c] · (max_k (x R k − centers c k) − min_k (x R k − centers c k))) / 202752,
  the maxima from −∞ and the minima from +∞. The reference does it in one pass over whole arrays. The kernel walks a grid of
  8 row tiles × 4 column tiles: per row tile it keeps a running maximum and a running minimum over the column tiles seen so
  far, and after the last column tile adds the tile's masked sum to an accumulator; after the very last point it divides
  the accumulator by the count and writes the one output entry, which a reshape after the call turns into a scalar.

  The two are the same function because a maximum over 1024 columns is the join of the maxima over four blocks of 256
  (dually the minimum), and a sum over 2048 rows is the sum of the sums over eight blocks of 256 — associativity and
  commutativity of max, min and + on the extended reals, which hold at the infinities too: the precondition (finite
  inputs) is not used.

  Modules: Spec (the loss as one function, and those order-free laws); Pieces, Steps (what each control case of the kernel
  body leaves in its scratch buffers); PayloadAt (the body's arithmetic read at an index); Blocks (which array entries a
  grid point's blocks hold); Invariant, InvStep (the grid's invariant, by induction on the point); KernelValue (the
  write-back, the reshape after the call, the run); RefSide (the reference's stages are the loss).
  The ideal pass rewrote nothing, so `preserves` is trivial; the three frames are the generated ones.
-/
import proofs.«161679_j52613349376866_1_alg».proof.Defs
import proofs.«161679_j52613349376866_1_alg».proof.Proof.Gen.Kernel
import proofs.«161679_j52613349376866_1_alg».proof.Proof.Gen.Kernel.Frame
import proofs.«161679_j52613349376866_1_alg».proof.Proof.Gen.KernelIdeal
import proofs.«161679_j52613349376866_1_alg».proof.Proof.Gen.KernelIdeal.Frame
import proofs.«161679_j52613349376866_1_alg».proof.Proof.Gen.ReferenceIdeal
import proofs.«161679_j52613349376866_1_alg».proof.Proof.Gen.ReferenceIdeal.Run
import proofs.«161679_j52613349376866_1_alg».proof.Proof.Gen.ReferenceIdeal.Read
import proofs.«161679_j52613349376866_1_alg».proof.Proof.Gen.Pre_finite_inputs
import proofs.«161679_j52613349376866_1_alg».proof.Proof.KernelValue
import proofs.«161679_j52613349376866_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx Tropical

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's scalar and the reference's are the loss of arguments that agree. -/
theorem algebraic : Cert.algebraic_KernelIdeal_ReferenceIdeal := by
  intro m ρ m' ρ' _ hagree
  refine ⟨fun c => fun _ => loss
      (fun R k => m ((c.tc : Thread Cert.KernelIdeal.nD Cert.KernelIdeal.τ).loc Cert.KernelIdeal.main_arg0) (ix2 R k))
      (fun R => m ((c.tc : Thread Cert.KernelIdeal.nD Cert.KernelIdeal.τ).loc Cert.KernelIdeal.main_arg1) (ix1 R))
      (fun cc k => m ((c.tc : Thread Cert.KernelIdeal.nD Cert.KernelIdeal.τ).loc Cert.KernelIdeal.main_arg2) (ix2 cc k)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
